-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x4096 : Shape := ⟨2, ![8192, 4096]⟩
abbrev S1024x4096 : Shape := ⟨2, ![1024, 4096]⟩
abbrev S1024 : Shape := ⟨1, ![1024]⟩
abbrev S1x1024 : Shape := ⟨2, ![1, 1024]⟩
abbrev S_ : Shape := ⟨0, ![]⟩
abbrev S8192 : Shape := ⟨1, ![8192]⟩

class Facts : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_
  reducesTo_S8192x1024_S8192_d1 : S8192x1024.ReducesTo [1] S8192
  bcast_S_S8192 : S_.BroadcastsInDim S8192 (![] : Fin 0 → Fin S8192.rank)
  reducesTo_S8192_S_d0 : S8192.ReducesTo [0] S_
  dot_S8192x4096_S1024x4096_S8192x1024_1_1_0_0_n_n_wf : DotDims.WF S8192x4096 S1024x4096 S8192x1024 [1] [1] [0] [0] [] []

variable [Facts]

def dot_S8192x4096_S1024x4096_S8192x1024_1_1_0_0_n_n : DotDims S8192x4096 S1024x4096 S8192x1024 where
  lhsContracting := [1]
  rhsContracting := [1]
  lhsNonContracting := [0]
  rhsNonContracting := [0]
  lhsBatch := []
  rhsBatch := []
  wf := dot_S8192x4096_S1024x4096_S8192x1024_1_1_0_0_n_n_wf
def fn_part1 {F : FTy → Type} [FloatOps F] (main_arg3 : FVec F S1024 .f32) (main_v3 : FVec F S8192x1024 .f32) (main_v17 : IVec S_ 1) : IVec S_ 1 :=
  let main_v18 : FVec F S1024 .f32 := Host.absf main_arg3
  let main_cst_4 : FVec F S_ .f32 := constant S_ .f32 0x7F800000#32
  let main_v19 : FVec F S1024 .f32 := broadcastInDim S1024 ![] bcast_S_S1024 main_cst_4
  let main_v20 : IVec S1024 1 := cmpf .olt main_v18 main_v19
  let main_c_5 : IVec S_ 1 := constantI S_ 1 1#1
  let main_v21 : IVec S_ 1 := (fun x v => Host.reduce IntOp.andi x v reducesTo_S1024_S_d0 h_S_) main_v20 main_c_5
  let main_v22 : IVec S_ 1 := andi main_v17 main_v21
  let main_v23 : FVec F S8192x1024 .f32 := mulf main_v3 main_v3
  let main_cst_6 : FVec F S_ .f32 := constant S_ .f32 0x00000000#32
  let main_v24 : FVec F S8192 .f32 := (fun x v => Host.reduceAdd x v reducesTo_S8192x1024_S8192_d1 h_S_) main_v23 main_cst_6
  let main_cst_7 : FVec F S_ .f32 := constant S_ .f32 0x00000000#32
  let main_v25 : FVec F S8192 .f32 := broadcastInDim S8192 ![] bcast_S_S8192 main_cst_7
  let main_v26 : IVec S8192 1 := cmpf .ogt main_v24 main_v25
  let main_c_8 : IVec S_ 1 := constantI S_ 1 1#1
  let main_v27 : IVec S_ 1 := (fun x v => Host.reduce IntOp.andi x v reducesTo_S8192_S_d0 h_S_) main_v26 main_c_8
  let main_v28 : IVec S_ 1 := andi main_v22 main_v27
  main_v28

def fn {F : FTy → Type} [FloatOps F] (main_arg0 : FVec F S8192x1024 .f32) (main_arg1 : FVec F S8192x4096 .f32) (main_arg2 : FVec F S1024x4096 .f32) (main_arg3 : FVec F S1024 .f32) : IVec S_ 1 :=
  let main_v0 : FVec F S8192x1024 .f32 := (fun l r => Host.dotGeneral dot_S8192x4096_S1024x4096_S8192x1024_1_1_0_0_n_n none l r) main_arg1 main_arg2
  let main_v1 : FVec F S1x1024 .f32 := broadcastInDim S1x1024 ![1] bcast_S1024_S1x1024_1 main_arg3
  let main_v2 : FVec F S8192x1024 .f32 := broadcastInDim S8192x1024 ![0, 1] bcast_S1x1024_S8192x1024_0_1 main_v1
  let main_v3 : FVec F S8192x1024 .f32 := addf main_v0 main_v2
  let main_v4 : FVec F S8192x1024 .f32 := Host.absf main_arg0
  let main_cst : FVec F S_ .f32 := constant S_ .f32 0x7F800000#32
  let main_v5 : FVec F S8192x1024 .f32 := broadcastInDim S8192x1024 ![] bcast_S_S8192x1024 main_cst
  let main_v6 : IVec S8192x1024 1 := cmpf .olt main_v4 main_v5
  let main_c : IVec S_ 1 := constantI S_ 1 1#1
  let main_v7 : IVec S_ 1 := (fun x v => Host.reduce IntOp.andi x v reducesTo_S8192x1024_S_d0_1 h_S_) main_v6 main_c
  let main_v8 : FVec F S8192x4096 .f32 := Host.absf main_arg1
  let main_cst_0 : FVec F S_ .f32 := constant S_ .f32 0x7F800000#32
  let main_v9 : FVec F S8192x4096 .f32 := broadcastInDim S8192x4096 ![] bcast_S_S8192x4096 main_cst_0
  let main_v10 : IVec S8192x4096 1 := cmpf .olt main_v8 main_v9
  let main_c_1 : IVec S_ 1 := constantI S_ 1 1#1
  let main_v11 : IVec S_ 1 := (fun x v => Host.reduce IntOp.andi x v reducesTo_S8192x4096_S_d0_1 h_S_) main_v10 main_c_1
  let main_v12 : IVec S_ 1 := andi main_v7 main_v11
  let main_v13 : FVec F S1024x4096 .f32 := Host.absf main_arg2
  let main_cst_2 : FVec F S_ .f32 := constant S_ .f32 0x7F800000#32
  let main_v14 : FVec F S1024x4096 .f32 := broadcastInDim S1024x4096 ![] bcast_S_S1024x4096 main_cst_2
  let main_v15 : IVec S1024x4096 1 := cmpf .olt main_v13 main_v14
  let main_c_3 : IVec S_ 1 := constantI S_ 1 1#1
  let main_v16 : IVec S_ 1 := (fun x v => Host.reduce IntOp.andi x v reducesTo_S1024x4096_S_d0_1 h_S_) main_v15 main_c_3
  let main_v17 : IVec S_ 1 := andi main_v12 main_v16
  fn_part1 (F := F) main_arg3 main_v3 main_v17
-- ==== Kernel.lean ====
abbrev S8192x1024 : Shape := ⟨2, ![8192, 1024]⟩
abbrev S8192x4096 : Shape := ⟨2, ![8192, 4096]⟩
abbrev S1024x4096 : Shape := ⟨2, ![1024, 4096]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩
abbrev S_ : Shape := ⟨0, ![]⟩
abbrev S8192x1 : Shape := ⟨2, ![8192, 1]⟩

abbrev nBuf : Space → Nat
  | .hbm => 10
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S1024x4096, .f32⟩
  | .hbm, ⟨3, _⟩ => ⟨S1024, .f32⟩
  | .hbm, ⟨4, _⟩ => ⟨S8192x4096, .bf16⟩
  | .hbm, ⟨5, _⟩ => ⟨S1024x4096, .bf16⟩
  | .hbm, ⟨6, _⟩ => ⟨S1x1024, .f32⟩
  | .hbm, ⟨7, _⟩ => ⟨S8192x1024, .f32⟩
  | .hbm, ⟨8, _⟩ => ⟨S_, .f32⟩
  | .hbm, ⟨9, _⟩ => ⟨S8192x1, .f32⟩
  | .local _ .vmem, ⟨0, _⟩ => ⟨S1024x1024, .bf16⟩
  | .local _ .vmem, ⟨1, _⟩ => ⟨S1024x1024, .bf16⟩
  | .local _ .vmem, ⟨2, _⟩ => ⟨S1024x4096, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  ![0, v5.toNat]
def k0_cond2 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x1024 : S1024x1.Broadcasts S1024x1024
  bcast_S_S8192x1 : S_.BroadcastsInDim S8192x1 (![] : Fin 0 → Fin S8192x1.rank)
  dot_S1024x1024_S1024x1024_S1024x1024_1_1_0_0_n_n_wf : DotDims.WF S1024x1024 S1024x1024 S1024x1024 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S1024x1024.size a ≤ S1024x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .f32 = 32 ∨ (Rect.block (s := S8192x1024) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x1024.size a
  hwx0_4 : ∀ i : grid0.Coords, EltTy.bits .f32 = 32 ∨ (Rect.block (s := S8192x1024) S1024x1024.size (cc0_transform_4 i) (hinb0_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x1024 : Shape := ⟨2, ![8192, 1024]⟩
abbrev S8192x4096 : Shape := ⟨2, ![8192, 4096]⟩
abbrev S1024x4096 : Shape := ⟨2, ![1024, 4096]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S1024x4096, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1024 : S_.BroadcastsInDim S8192x1024 (![] : Fin 0 → Fin S8192x1024.rank)
  bcast_S8192x1_S8192x1024_0_1 : S8192x1.BroadcastsInDim S8192x1024 (![0, 1] : Fin 2 → Fin S8192x1024.rank)
  bcast_S_S8192x1 : S_.BroadcastsInDim S8192x1 (![] : Fin 0 → Fin S8192x1.rank)
  dot_S8192x4096_S1024x4096_S8192x1024_1_1_0_0_n_n_wf : DotDims.WF S8192x4096 S1024x4096 S8192x1024 [1] [1] [0] [0] [] []

variable [Facts₀]

def dot_S8192x4096_S1024x4096_S8192x1024_1_1_0_0_n_n : DotDims S8192x4096 S1024x4096 S8192x1024 where
  lhsContracting := [1]
  rhsContracting := [1]
  lhsNonContracting := [0]
  rhsNonContracting := [0]
  lhsBatch := []
  rhsBatch := []
  wf := dot_S8192x4096_S1024x4096_S8192x1024_1_1_0_0_n_n_wf

class Facts : Prop extends Facts₀ where

variable [Facts]
-- ==== Proof.Pieces.lean ====
/-
  What one grid point leaves behind, as values.

  The kernel keeps a [1024, 1024] accumulator across the four points of a row block.  Every point adds to it the product
  of the point's [1024, 1024] block of the encoder output with the matching 1024 columns of the weight matrix (contracted
  along those columns); the first point of a row block starts from the zero block instead of the carried contents; the
  last point also writes the output block, computed from the accumulator it has just completed, the bias row and the
  input block.  Each of these is one covering store, so what the buffer holds afterwards is that store's value.
-/
import proofs.«109229_j62002147885246_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem zero_offsets : (![0, 0] : Fin 2 → Nat) = fun _ => 0 := funext fun a => by fin_cases a <;> rfl

/-- The 1024 columns of the weight matrix a point contracts against: columns `off, …, off + 1023` of the resident
    [1024, 4096] block, `off` the point's reduction coordinate times 1024. -/
def wcols (i : grid0.Coords) (x1 : Vec F S1024x4096 .bf16) : Vec F S1024x1024 .bf16 :=
  View.ld x1 (Rect.unit (s := S1024x4096) (k0_off1 i) S1024x1024.size (k0_off1_inb i))

/-- One accumulation step: the carried block `acc` plus the product of the encoder block `x0` with the weight columns. -/
abbrev step (i : grid0.Coords) (x0 : Vec F S1024x1024 .bf16) (x1 : Vec F S1024x4096 .bf16) (acc : Vec F S1024x1024 .f32) :
    Vec F S1024x1024 .f32 := k0_pay2 (wcols i x1) acc x0

/-- A middle point of a row block leaves the accumulator one step further. -/
theorem scratch_B (c : Dev nD) (i : grid0.Coords) (arg2 : Memref sig .tc .vmem S1024x1024 .bf16) (harg2 : arg2.IsWhole) (arg3 : Memref sig .tc .vmem S1024x4096 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x4096 .bf16) (x2 : Vec F S1x1024 .f32) (x3 : Vec F S1024x1024 .f32) (xs0 : Vec F S1024x1024 .f32) :
    sout0_B_0 c i arg2 harg2 arg3 harg3 arg4 harg4 arg5 harg5 arg6 harg6 arg7 harg7 hc0 hc1 x0 x1 x2 x3 xs0 = step i x0 x1 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  rw [View.canon_unit_zero zero_offsets]
  simp only [View.readAt_eq_ld, harg2.read_unread, harg3.read_unread, harg7.read_unread, View.ld_unit_zero (S := S1024x1024) zero_offsets]
  rfl

/-- The last point of a row block leaves the accumulator one step further as well, -/
theorem scratch_C (c : Dev nD) (i : grid0.Coords) (arg2 : Memref sig .tc .vmem S1024x1024 .bf16) (harg2 : arg2.IsWhole) (arg3 : Memref sig .tc .vmem S1024x4096 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x4096 .bf16) (x2 : Vec F S1x1024 .f32) (x3 : Vec F S1024x1024 .f32) (xs0 : Vec F S1024x1024 .f32) :
    sout0_C_0 c i arg2 harg2 arg3 harg3 arg4 harg4 arg5 harg5 arg6 harg6 arg7 harg7 hc0 hc1 x0 x1 x2 x3 xs0 = step i x0 x1 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero zero_offsets]
  simp only [View.readAt_eq_ld, harg2.read_unread, harg3.read_unread, harg4.read_unread, harg5.read_unread, harg7.read_unread,
    View.ld_unit_zero (S := S1024x1024) zero_offsets, View.ld_unit_zero (S := S1x1024) zero_offsets]
  rfl

/-- and writes the output block: the epilogue of that completed accumulator, the bias row and the input block. -/
theorem out_C (c : Dev nD) (i : grid0.Coords) (arg2 : Memref sig .tc .vmem S1024x1024 .bf16) (harg2 : arg2.IsWhole) (arg3 : Memref sig .tc .vmem S1024x4096 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x4096 .bf16) (x2 : Vec F S1x1024 .f32) (x3 : Vec F S1024x1024 .f32) (xs0 : Vec F S1024x1024 .f32) :
    out0_C_4 c i arg2 harg2 arg3 harg3 arg4 harg4 arg5 harg5 arg6 harg6 arg7 harg7 hc0 hc1 x0 x1 x2 x3 xs0 = k0_pay3 (step i x0 x1 xs0) x2 x3 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero zero_offsets, View.readCov_unit_zero (S := S1024x1024) _ zero_offsets]
  simp only [View.readAt_eq_ld, harg2.read_unread, harg3.read_unread, harg4.read_unread, harg5.read_unread, harg7.read_unread,
    View.ld_unit_zero (S := S1024x1024) zero_offsets, View.ld_unit_zero (S := S1x1024) zero_offsets]
  rfl

/-- The first point of a row block starts from the zero block. -/
theorem scratch_A (c : Dev nD) (i : grid0.Coords) (arg2 : Memref sig .tc .vmem S1024x1024 .bf16) (harg2 : arg2.IsWhole) (arg3 : Memref sig .tc .vmem S1024x4096 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x4096 .bf16) (x2 : Vec F S1x1024 .f32) (x3 : Vec F S1024x1024 .f32) :
    sout0_A_0 c i arg2 harg2 arg3 harg3 arg4 harg4 arg5 harg5 arg6 harg6 arg7 harg7 hc0 hc1 x0 x1 x2 x3 = step i x0 x1 k0_pay1 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1024x1024) zero_offsets, View.readCov_unit_zero (S := S1024x1024) _ zero_offsets]
  simp only [View.readAt_eq_ld, harg2.read_unread, harg3.read_unread, harg4.read_unread, harg5.read_unread, harg7.read_unread,
    View.ld_unit_zero (S := S1024x1024) zero_offsets, View.ld_unit_zero (S := S1x1024) zero_offsets]
  rfl

end Cert.KernelIdeal.Pieces

end
-- ==== Proof.Accumulate.lean ====
/-
  The accumulator along a row block, point by point.

  The 32 grid points run through 8 row blocks of 4 reduction steps each (point `n` is row block `n / 4`, step `n % 4`).
  After point `n` the carried [1024, 1024] buffer holds the zero block advanced by the steps `0, …, n % 4` of its row
  block: a step whose number is a multiple of four restarts from the zero block, every other step continues from what the
  point before left.  At a point with `n % 4 = 3` the output block is the epilogue of that accumulator.
-/
import proofs.«109229_j62002147885246_2_alg».proof.Proof.Pieces

set_option maxRecDepth 16384

noncomputable section

open Idealize.ShloMosaic Idealize.ShloMosaic.TcCoe Idealize.SL.Sem

namespace Cert.KernelIdeal.Accumulate

open Cert.KernelIdeal Cert.KernelIdeal.Gen Cert.KernelIdeal.Pieces

variable {F : FTy → Type} [FloatOps F]
variable (m : (ℓ : Loc nD τ sig) → Buf (Elt F) ℓ)

/-- The accumulator after point `n`. -/
def acc (c : Dev nD) : (n : ℕ) → n < cfg0.N → Vec F S1024x1024 .f32
  | 0, h => step (grid0.coords ⟨0, h⟩) (iblk m c 0 ⟨0, h⟩) (iblk m c 1 ⟨0, h⟩) k0_pay1
  | n + 1, h =>
    if (n + 1) % 4 = 0 then step (grid0.coords ⟨n + 1, h⟩) (iblk m c 0 ⟨n + 1, h⟩) (iblk m c 1 ⟨n + 1, h⟩) k0_pay1
    else step (grid0.coords ⟨n + 1, h⟩) (iblk m c 0 ⟨n + 1, h⟩) (iblk m c 1 ⟨n + 1, h⟩) (acc c n (Nat.lt_of_succ_lt h))

theorem acc_first (c : Dev nD) (n : ℕ) (h : n + 1 < cfg0.N) (h0 : (n + 1) % 4 = 0) :
    acc m c (n + 1) h = step (grid0.coords ⟨n + 1, h⟩) (iblk m c 0 ⟨n + 1, h⟩) (iblk m c 1 ⟨n + 1, h⟩) k0_pay1 := by
  show (if (n + 1) % 4 = 0 then _ else _) = _
  rw [if_pos h0]

theorem acc_next (c : Dev nD) (n : ℕ) (h : n + 1 < cfg0.N) (h0 : ¬(n + 1) % 4 = 0) :
    acc m c (n + 1) h
      = step (grid0.coords ⟨n + 1, h⟩) (iblk m c 0 ⟨n + 1, h⟩) (iblk m c 1 ⟨n + 1, h⟩) (acc m c n (Nat.lt_of_succ_lt h)) := by
  show (if (n + 1) % 4 = 0 then _ else _) = _
  rw [if_neg h0]

/-- The carried buffer after point `n` is the accumulator: by induction on the point. -/
theorem scratch_eq (c : Dev nD) : ∀ (n : ℕ) (h : n < cfg0.N), (outsAt0 m c n h).2 = acc m c n h
  | 0, h => by
    rw [outsAt0_A m c ⟨0, h⟩ rfl (show ¬(0 % 4 = 3) by decide)]
    dsimp only
    rw [scratch_A]
    rfl
  | n + 1, h => by
    have hN : cfg0.N = 32 := N_0
    by_cases h0 : (n + 1) % 4 = 0
    · have h1 : ¬(n + 1) % 4 = 3 := by omega
      rw [outsAt0_A m c ⟨n + 1, h⟩ h0 h1, acc_first m c n h h0]
      dsimp only
      rw [scratch_A]
    · by_cases h1 : (n + 1) % 4 = 3
      · rw [outsAt0_C m c ⟨n + 1, h⟩ h0 h1, acc_next m c n h h0, ← scratch_eq c n (Nat.lt_of_succ_lt h)]
        dsimp only
        rw [scratch_C]
        rfl
      · rw [outsAt0_B m c ⟨n + 1, h⟩ h0 h1, acc_next m c n h h0, ← scratch_eq c n (Nat.lt_of_succ_lt h)]
        dsimp only
        rw [scratch_B]
        rfl

/-- At the last step of a row block the output block is the epilogue of the completed accumulator, the bias row and the
    input block. -/
theorem out_eq (c : Dev nD) (n : ℕ) (h : n + 1 < cfg0.N) (h3 : (n + 1) % 4 = 3) :
    (outsAt0 m c (n + 1) h).1 = k0_pay3 (acc m c (n + 1) h) (iblk m c 2 ⟨n + 1, h⟩) (iblk m c 3 ⟨n + 1, h⟩) := by
  have h0 : ¬(n + 1) % 4 = 0 := by omega
  rw [outsAt0_C m c ⟨n + 1, h⟩ h0 h3, acc_next m c n h h0, ← scratch_eq m c n (Nat.lt_of_succ_lt h)]
  dsimp only
  rw [out_C]
  rfl

end Cert.KernelIdeal.Accumulate

end
-- ==== Proof.Blocks.lean ====
/-
  The windows' blocks, read at an entry of the arrays they come from.

  Point `t` is row block `t / 4`, reduction step `t % 4`.  Its encoder block is rows `1024·(t/4) …`, columns
  `1024·(t%4) …` of the [8192, 4096] encoder array; the weight block is the whole [1024, 4096] array, of which the
  body reads the columns `1024·(t%4) …`; the bias block is the whole [1, 1024] row; the input block and the output
  block are rows `1024·(t/4) …` of the [8192, 1024] arrays.
-/
import proofs.«109229_j62002147885246_2_alg».proof.Proof.Pieces
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen Cert.KernelIdeal.Pieces

variable {F : FTy → Type} [FloatOps F]
variable (m : (ℓ : Loc nD τ sig) → Buf (Elt F) ℓ)

/-! The index maps over the 32 grid points, decided once. -/

theorem enc_index : ∀ t : Fin cfg0.N, win0_0.index t 0 = t.val / 4 ∧ win0_0.index t 1 = t.val % 4 :=
  (by decide +kernel : ∀ t : Fin grid0.N, _)
theorem w_index : ∀ t : Fin cfg0.N, win0_1.index t 0 = 0 ∧ win0_1.index t 1 = 0 :=
  (by decide +kernel : ∀ t : Fin grid0.N, _)
theorem bias_index : ∀ t : Fin cfg0.N, win0_2.index t 0 = 0 ∧ win0_2.index t 1 = 0 :=
  (by decide +kernel : ∀ t : Fin grid0.N, _)
theorem x_index : ∀ t : Fin cfg0.N, win0_3.index t 0 = t.val / 4 ∧ win0_3.index t 1 = 0 :=
  (by decide +kernel : ∀ t : Fin grid0.N, _)
theorem out_index : ∀ t : Fin cfg0.N, win0_4.index t 0 = t.val / 4 ∧ win0_4.index t 1 = 0 :=
  (by decide +kernel : ∀ t : Fin grid0.N, _)
theorem wcols_offset : ∀ t : Fin cfg0.N, k0_off1 (grid0.coords t) 0 = 0 ∧ k0_off1 (grid0.coords t) 1 = 1024 * (t.val % 4) :=
  (by decide +kernel : ∀ t : Fin grid0.N, _)

/-- The encoder block at point `t`, entry (p, q): the encoder array at row `1024·(t/4) + p`, column `1024·(t%4) + q`. -/
theorem enc_block (c : Dev nD) (t : Fin cfg0.N) (p q : Fin 1024) (r : Fin 8192) (e : Fin 4096)
    (hr : r.val = 1024 * (t.val / 4) + p.val) (he : e.val = 1024 * (t.val % 4) + q.val) :
    (iblk m c 0 t : Vec F S1024x1024 .bf16) (ix2 p q) = V m c main_v0 (ix2 r e) := by
  unfold iblk
  rw [View.read_apply]
  show V m c main_v0 _ = V m c main_v0 _
  congr 1
  funext a
  apply Fin.ext
  match a with
  | ⟨0, _⟩ => show win0_0.index t 0 * 1024 + 1 * p.val = r.val; rw [(enc_index t).1]; omega
  | ⟨1, _⟩ => show win0_0.index t 1 * 1024 + 1 * q.val = e.val; rw [(enc_index t).2]; omega

/-- The weight columns the body reads at point `t`, entry (j, q): the weight array at row `j`, column `1024·(t%4) + q`. -/
theorem w_block (c : Dev nD) (t : Fin cfg0.N) (j q : Fin 1024) (e : Fin 4096) (he : e.val = 1024 * (t.val % 4) + q.val) :
    wcols (grid0.coords t) (iblk m c 1 t : Vec F S1024x4096 .bf16) (ix2 j q) = V m c main_v1 (ix2 j e) := by
  unfold wcols iblk
  show View.read _ _ _ _ = _
  rw [View.read_apply]
  show V m c main_v1 _ = V m c main_v1 _
  congr 1
  funext a
  apply Fin.ext
  match a with
  | ⟨0, _⟩ =>
    show win0_1.index t 0 * 1024 + 1 * (k0_off1 (grid0.coords t) 0 + 1 * j.val) = j.val
    rw [(w_index t).1, (wcols_offset t).1]; omega
  | ⟨1, _⟩ =>
    show win0_1.index t 1 * 4096 + 1 * (k0_off1 (grid0.coords t) 1 + 1 * q.val) = e.val
    rw [(w_index t).2, (wcols_offset t).2]; omega

/-- The bias block at any point is the whole bias row. -/
theorem bias_block (c : Dev nD) (t : Fin cfg0.N) (j : Fin 1024) :
    (iblk m c 2 t : Vec F S1x1024 .f32) (ix2 (0 : Fin 1) j) = V m c main_v2 (ix2 (0 : Fin 1) j) := by
  unfold iblk
  rw [View.read_apply]
  show V m c main_v2 _ = V m c main_v2 _
  congr 1
  funext a
  apply Fin.ext
  match a with
  | ⟨0, _⟩ => show win0_2.index t 0 * 1 + 1 * 0 = 0; rw [(bias_index t).1]
  | ⟨1, _⟩ => show win0_2.index t 1 * 1024 + 1 * j.val = j.val; rw [(bias_index t).2]; omega

/-- The input block at point `t`, entry (p, j): the input array at row `1024·(t/4) + p`, column `j`. -/
theorem x_block (c : Dev nD) (t : Fin cfg0.N) (p j : Fin 1024) (r : Fin 8192) (hr : r.val = 1024 * (t.val / 4) + p.val) :
    (iblk m c 3 t : Vec F S1024x1024 .f32) (ix2 p j) = V m c main_arg0 (ix2 r j) := by
  unfold iblk
  rw [View.read_apply]
  show V m c main_arg0 _ = V m c main_arg0 _
  congr 1
  funext a
  apply Fin.ext
  match a with
  | ⟨0, _⟩ => show win0_3.index t 0 * 1024 + 1 * p.val = r.val; rw [(x_index t).1]; omega
  | ⟨1, _⟩ => show win0_3.index t 1 * 1024 + 1 * j.val = j.val; rw [(x_index t).2]; omega

end Cert.KernelIdeal.Blocks

end
-- ==== Proof.LibKeepdims.lean ====
/-
  Layout operations of a sum taken with `keepdims`, read at an index given by coordinates, and a one-axis sum read
  as a sum over that axis's coordinate. General facts about shapes [a], [a, 1], [1, a] and [a, b]: nothing here
  mentions a program.

  • `shapeCast_a_a1_apply`: a vector [a] viewed as the column [a, 1] reads, at (i, u), the vector at i.
  • `broadcastTo_a1_ab_apply`: a column [a, 1] broadcast to [a, b] reads, at (p, c), the column at (p, 0).
  • `rowSum_apply`: the sum of an [a, b] array along its second axis reads, at p, the sum over k of the array at (p, k).
  • `rowSumSq_bcast_apply`: the squares of an [a, b] array summed along the second axis, kept as a column and broadcast
    to [a, c]: at (p, q) the sum over k of the square at (p, k) — a row's squared norm, the same in every column.
  • `colSumSq_bcast_apply`: the same sum for a [c, b] array, its column transposed to a row [1, c] and broadcast to
    [a, c]: at (p, q) the sum over k of the square at (q, k) — a row's squared norm, the same in every row.
-/
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`: the two row-major positions are
    `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A float sum of an `[a, b]` array along its second axis, on the extended reals, reads at `p` the sum over `k` of the
    array at `(p, k)`. -/
theorem rowSum_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- Each row's squared norm, kept as a column and broadcast along the rows of `[a, c]`. -/
theorem rowSumSq_bcast_apply {a b c : ℕ} (v : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, c]⟩) (p : Fin a) (q : Fin c) :
    broadcastTo ⟨2, ![a, c]⟩ (shapeCast ⟨2, ![a, 1]⟩ (multiReduction (F := Ideal) .add [1] ⟨1, ![a]⟩ (mulf v v) 0x00000000#32 hR hφ hacc) hC) hB (ix2 p q)
      = ∑ k : Fin b, v (ix2 p k) * v (ix2 p k) :=
  (broadcastTo_a1_ab_apply _ hB p q).trans
    ((shapeCast_a_a1_apply _ hC p 0).trans (rowSum_apply (mulf v v) hR hφ hacc p))

/-- Each row's squared norm of a `[c, b]` array, its column turned into a row and broadcast down the rows of `[a, c]`. -/
theorem colSumSq_bcast_apply {a b c : ℕ} (w : FVec Ideal ⟨2, ![c, b]⟩ .f32) (hR : (⟨2, ![c, b]⟩ : Shape).Reduces [1] ⟨1, ![c]⟩)
    (hφ : FKind.Formats .f32) (hacc : (0x00000000#32 : BitVec 32) = FKind.add.neutral .f32 hφ)
    (hC : (⟨1, ![c]⟩ : Shape).ShapeCasts ⟨2, ![c, 1]⟩) (hT : (⟨2, ![c, 1]⟩ : Shape).Transposes [1, 0] ⟨2, ![1, c]⟩)
    (hB : (⟨2, ![1, c]⟩ : Shape).Broadcasts ⟨2, ![a, c]⟩) (p : Fin a) (q : Fin c) :
    broadcastTo ⟨2, ![a, c]⟩ (transpose ⟨2, ![1, c]⟩ [1, 0]
        (shapeCast ⟨2, ![c, 1]⟩ (multiReduction (F := Ideal) .add [1] ⟨1, ![c]⟩ (mulf w w) 0x00000000#32 hR hφ hacc) hC) hT) hB (ix2 p q)
      = ∑ k : Fin b, w (ix2 q k) * w (ix2 q k) :=
  (broadcastTo_1b_ab_apply _ hB p q).trans
    ((transpose_ix2_apply _ hT 0 q).trans
      ((shapeCast_a_a1_apply _ hC q 0).trans (rowSum_apply (mulf w w) hR hφ hacc q)))

end Cert.Keepdims

end
-- ==== Proof.BodyRead.lean ====
/-
  The body's arithmetic read entry by entry, on the extended reals.

  One accumulation step adds to the carried entry (p, j) the sum over q of the encoder block's entry (p, q) times the weight
  columns' entry (j, q).  The zero block is zero everywhere.  The epilogue forms v = acc + bias (the bias row spread over
  the rows), then, row by row, s1 = the sum over the row of v·x and s2 = the sum over the row of v·v, and writes
  x − ((2·v)·s1)·rsqrt s2.
-/
import proofs.«109229_j62002147885246_2_alg».proof.Proof.Gen.KernelIdeal.Skeleton
import proofs.«109229_j62002147885246_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.BodyRead

open Cert.KernelIdeal Cert.KernelIdeal.Gen

/-- The matrix product's dimension record: both operands contracted along their second axis. -/
abbrev mm := dot_S1024x1024_S1024x1024_S1024x1024_1_1_0_0_n_n

theorem lhs_row (j : S1024x1024.Idx) (q : mm.contr.Idx) : (mm.lhsIdx j q 0).val = (j 0).val := by
  unfold DotDims.lhsIdx
  rw [dif_neg (show ¬(0 : Fin S1024x1024.rank) ∈ mm.lhsBatch by decide), dif_pos (show (0 : Fin S1024x1024.rank) ∈ mm.lhsNonContracting by decide)]
  rfl
theorem lhs_col (j : S1024x1024.Idx) (q : mm.contr.Idx) : (mm.lhsIdx j q 1).val = (q ⟨0, by decide⟩).val :=
  DotDims.lhsIdx_val_of_single mm (cl := 1) rfl j q
theorem rhs_row (j : S1024x1024.Idx) (q : mm.contr.Idx) : (mm.rhsIdx j q 0).val = (j 1).val := by
  unfold DotDims.rhsIdx
  rw [dif_neg (show ¬(0 : Fin S1024x1024.rank) ∈ mm.rhsBatch by decide), dif_pos (show (0 : Fin S1024x1024.rank) ∈ mm.rhsNonContracting by decide)]
  rfl
theorem rhs_col (j : S1024x1024.Idx) (q : mm.contr.Idx) : (mm.rhsIdx j q 1).val = (q ⟨0, by decide⟩).val :=
  DotDims.rhsIdx_val_of_single mm (cr := 1) rfl j q

/-- One accumulation step at entry (p, j). -/
theorem step_apply (w : Vec Ideal S1024x1024 .bf16) (a : Vec Ideal S1024x1024 .f32) (x : Vec Ideal S1024x1024 .bf16) (p j : Fin 1024) :
    k0_pay2 (F := Ideal) w a x (ix2 p j) = a (ix2 p j) + ∑ q : Fin 1024, x (ix2 p q) * w (ix2 j q) := by
  unfold k0_pay2
  simp only [shapeCast_self]
  show a (ix2 p j) + FloatOps.matmul (F := Ideal) mm none x w (constant S1024x1024 .f32 0x00000000#32) (ix2 p j) = _
  rw [Ideal.matmul_constant_zero_apply, ← Equiv.sum_comp (contrEquiv1 mm 1024 rfl rfl).symm]
  refine congrArg (a (ix2 p j) + ·) (Finset.sum_congr rfl fun q _ => ?_)
  have hk := contrEquiv1_symm_val mm 1024 rfl rfl q
  have el : mm.lhsIdx (ix2 p j) ((contrEquiv1 mm 1024 rfl rfl).symm q) = ix2 p q := funext fun ax => Fin.ext (by
    match ax with
    | ⟨0, _⟩ => exact lhs_row _ _
    | ⟨1, _⟩ => exact (lhs_col _ _).trans hk)
  have er : mm.rhsIdx (ix2 p j) ((contrEquiv1 mm 1024 rfl rfl).symm q) = ix2 j q := funext fun ax => Fin.ext (by
    match ax with
    | ⟨0, _⟩ => exact rhs_row _ _
    | ⟨1, _⟩ => exact (rhs_col _ _).trans hk)
  rw [el, er]

/-- The zero block is zero at every entry. -/
theorem zero_apply (i : S1024x1024.Idx) : k0_pay1 (F := Ideal) i = 0 := by
  unfold k0_pay1
  simp only [shapeCast_self]
  show Ideal.ofBits .f32 0x00000000#32 = 0
  exact Ideal.ofBits_zero_f32

/-- The word of the factor 2 in the epilogue. -/
abbrev two : EReal := Ideal.ofBits .f32 0x40000000#32

/-- The epilogue at entry (p, j): with v = acc + bias, the entry is x − ((2·v)·Σ v·x)·rsqrt (Σ v·v), the sums over row p. -/
theorem epilogue_apply (a : FVec Ideal S1024x1024 .f32) (b : FVec Ideal S1x1024 .f32) (x : FVec Ideal S1024x1024 .f32) (p j : Fin 1024) :
    k0_pay3 (F := Ideal) a b x (ix2 p j)
      = x (ix2 p j) - ((two * (a (ix2 p j) + b (ix2 (0 : Fin 1) j)))
          * ∑ k : Fin 1024, (a (ix2 p k) + b (ix2 (0 : Fin 1) k)) * x (ix2 p k))
          * Ideal.rsqrt (∑ k : Fin 1024, (a (ix2 p k) + b (ix2 (0 : Fin 1) k)) * (a (ix2 p k) + b (ix2 (0 : Fin 1) k))) := by
  unfold k0_pay3
  simp only [shapeCast_self]
  generalize hV : addf a (broadcastTo S1024x1024 b broadcasts_S1x1024_S1024x1024) = v
  have hv : ∀ k : Fin 1024, v (ix2 p k) = a (ix2 p k) + b (ix2 (0 : Fin 1) k) := fun k => by
    rw [← hV]
    exact congrArg (fun z : EReal => a (ix2 p k) + z) (broadcastTo_1b_ab_apply b broadcasts_S1x1024_S1024x1024 p k)
  simp only [← hv]
  show x (ix2 p j) - ((two * v (ix2 p j)) * (broadcastTo S1024x1024 _ broadcasts_S1024x1_S1024x1024 (ix2 p j)))
      * (broadcastTo S1024x1024 (rsqrt _) broadcasts_S1024x1_S1024x1024 (ix2 p j)) = _
  rw [Cert.Keepdims.broadcastTo_a1_ab_apply, Cert.Keepdims.broadcastTo_a1_ab_apply]
  show _ - (_ * (shapeCast S1024x1 _ shapeCasts_S1024_S1024x1 (ix2 p (0 : Fin 1))))
      * Ideal.rsqrt (shapeCast S1024x1 _ shapeCasts_S1024_S1024x1 (ix2 p (0 : Fin 1))) = _
  rw [Cert.Keepdims.shapeCast_a_a1_apply, Cert.Keepdims.shapeCast_a_a1_apply]
  refine congrArg₂ (fun s1 s2 : EReal => x (ix2 p j) - (two * v (ix2 p j) * s1) * Ideal.rsqrt s2) ?_ ?_
  · exact Cert.Keepdims.rowSum_apply (mulf v x) _ _ _ p
  · exact Cert.Keepdims.rowSum_apply (mulf v v) _ _ _ p

end Cert.KernelIdeal.BodyRead

end
-- ==== Proof.HostPrefix.lean ====
/-
  The arrays the region finds, in terms of the program's arguments.

  Before the region the program narrows the encoder output and the weight matrix to bf16 and views the bias vector
  [1024] as a row [1, 1024].  On the extended reals a change of float format is the identity, so entry by entry the
  region's encoder and weight arrays are the arguments themselves, and the bias row's entry (0, j) is the bias at j.
-/
import proofs.«109229_j62002147885246_2_alg».proof.Proof.Gen.KernelIdeal.Frame
import Idealize.ShloMosaic.Lib.StableHlo.Run
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.HostPrefix

open Cert.KernelIdeal Cert.KernelIdeal.Gen

variable {F : FTy → Type} [FloatOps F]
variable (m : (ℓ : Loc nD τ sig) → Buf (Elt F) ℓ)

theorem enc_array (c : Dev nD) :
    (V m c main_v0 : S8192x4096.Idx → Elt F .bf16) = truncf .bf16 (m ((c : Thread nD τ).loc main_arg1)) bitsLt_bf16_f32 := by
  show StableHlo.after hostOps0 (fun b => m (c, b)) (Proc.devRef .tc main_v0) = _
  after_results <;> rfl

theorem w_array (c : Dev nD) :
    (V m c main_v1 : S1024x4096.Idx → Elt F .bf16) = truncf .bf16 (m ((c : Thread nD τ).loc main_arg2)) bitsLt_bf16_f32 := by
  show StableHlo.after hostOps0 (fun b => m (c, b)) (Proc.devRef .tc main_v1) = _
  after_results <;> rfl

theorem bias_array (c : Dev nD) :
    (V m c main_v2 : S1x1024.Idx → Elt F .f32) = shapeCast S1x1024 (m ((c : Thread nD τ).loc main_arg3)) shapeCasts_S1024_S1x1024 := by
  show StableHlo.after hostOps0 (fun b => m (c, b)) (Proc.devRef .tc main_v2) = _
  after_results <;> rfl

end Cert.KernelIdeal.HostPrefix

end
-- ==== Proof.LibSumBlocks.lean ====
/-
  Regrouping a finite sum into consecutive blocks, in any commutative monoid.

  A sum over the first `a * b` naturals is the sum over `a` consecutive blocks of `b` of each block's sum, position `q` of
  block `s` being the natural `s * b + q`; and so is a sum over `Fin n` when `n = a * b`. Only associativity and
  commutativity of the addition are used: in the extended reals the law holds at the infinities too. It is the law
  between a contraction taken whole and the same contraction accumulated block by block along the contracted axis.
-/
import Mathlib.Algebra.BigOperators.Fin

namespace Cert.Lib.SumBlocks

/-- A sum over the first `a * b` naturals is the sum, over `a` consecutive blocks of `b`, of each block's sum. -/
theorem sum_range_blocks {β : Type*} [AddCommMonoid β] (g : ℕ → β) (a b : ℕ) :
    ∑ n ∈ Finset.range (a * b), g n = ∑ s ∈ Finset.range a, ∑ q ∈ Finset.range b, g (s * b + q) := by
  induction a with
  | zero => simp
  | succ a ih => rw [Nat.succ_mul, Finset.sum_range_add, ih, Finset.sum_range_succ]

/-- A function of `n` positions, continued by zero to every natural, so that a position may be named by block number and
    offset without a bound in its type. -/
def onNat {β : Type*} [Zero β] {n : ℕ} (f : Fin n → β) (k : ℕ) : β := if h : k < n then f ⟨k, h⟩ else 0

/-- At a natural below `n` the continuation is the function itself. -/
theorem onNat_of_lt {β : Type*} [Zero β] {n : ℕ} (f : Fin n → β) (k : ℕ) (h : k < n) : onNat f k = f ⟨k, h⟩ :=
  dif_pos h

/-- A sum over `n = a * b` positions is the sum over the `a` blocks of `b` of each block's sum, the block's positions
    indexed by `Fin b`. -/
theorem sum_fin_blocks {β : Type*} [AddCommMonoid β] {n : ℕ} (a b : ℕ) (hn : n = a * b) (f : Fin n → β) :
    ∑ k : Fin n, f k = ∑ s ∈ Finset.range a, ∑ q : Fin b, onNat f (s * b + q.val) := by
  subst hn
  have h1 : ∑ k : Fin (a * b), f k = ∑ k : Fin (a * b), onNat f k.val :=
    Finset.sum_congr rfl fun k _ => (onNat_of_lt f k.val k.isLt).symm
  rw [h1, Fin.sum_univ_eq_sum_range (onNat f) (a * b), sum_range_blocks]
  exact Finset.sum_congr rfl fun s _ => (Fin.sum_univ_eq_sum_range (fun q => onNat f (s * b + q)) b).symm

end Cert.Lib.SumBlocks
-- ==== Proof.Algebra.lean ====
/-
  Scalar laws on the extended reals used to join the two programs.

  The kernel scales by the reciprocal square root of a row's squared norm `s`; the reference divides by the
  square root of `s`.  For `0 < s` both are multiplication by `(√s)⁻¹`; at `s = 0` they part
  (`a * rsqrt 0 = a * ⊤` while `a / √0` is a quotient by zero), which is why the squared norm is required
  to be positive.
-/
import Idealize.ShloMosaic.PureOps.Ideal

noncomputable section

namespace Householder.Algebra

open Idealize.ShloMosaic

/-- For a positive extended real `s`, multiplying by `rsqrt s` is dividing by `sqrt s`. -/
theorem mul_rsqrt_eq_div_sqrt (a s : EReal) (hs : 0 < s) :
    a * Ideal.rsqrt s = Ideal.div a (Ideal.sqrt s) := by
  induction s using EReal.rec with
  | bot => exact absurd hs (by simp)
  | top => simp [Ideal.div]
  | coe r =>
    have hr : 0 < r := by exact_mod_cast hs
    have hsq : 0 < Real.sqrt r := Real.sqrt_pos.mpr hr
    have hne : ((Real.sqrt r : ℝ) : EReal) ≠ 0 := by exact_mod_cast hsq.ne'
    rw [Ideal.rsqrt_coe, Ideal.sqrt_coe, if_neg (not_lt.mpr hr.le), if_neg hr.ne', if_neg (not_lt.mpr hr.le)]
    unfold Ideal.div
    rw [if_neg hne, ← EReal.coe_inv]

/-- At a zero squared norm the two forms differ: the kernel's product is `0`, the reference's quotient is `⊥`,
    so a finite `x` minus them is `x` against `⊤`. -/
theorem differ_at_zero : (0 : EReal) - (0 * Ideal.rsqrt 0) = 0 ∧ (0 : EReal) - Ideal.div 0 (Ideal.sqrt 0) = ⊤ := by
  constructor
  · have : Ideal.rsqrt ((0 : ℝ) : EReal) = ⊤ := by rw [Ideal.rsqrt_coe]; simp
    simp
  · have h : Ideal.sqrt ((0 : ℝ) : EReal) = 0 := by rw [Ideal.sqrt_coe]; simp
    have h' : Ideal.sqrt (0 : EReal) = 0 := by exact_mod_cast h
    rw [h']; simp [Ideal.div]

end Householder.Algebra

end
-- ==== Proof.Spec.lean ====
/-
  The function both programs compute, entry by entry, on the extended reals.

  For a row r of the batch: v r j = (Σ over e of E r e · W j e) + B j is the linear layer's output, s1 r = Σ over j of
  v r j · X r j its inner product with the input row, s2 r = Σ over j of (v r j)² its squared norm, and the reflected row is
  X r j − ((2 · v r j) · s1 r) · rsqrt (s2 r).  The reference writes the last factor as a quotient by sqrt (s2 r); for a
  positive s2 r the two agree.  The kernel takes the contraction over e in four consecutive blocks of 1024, starting from
  zero; a sum may be regrouped freely, so that is the whole contraction.
-/
import Idealize.ShloMosaic.PureOps.Ideal
import proofs.«109229_j62002147885246_2_alg».proof.Proof.LibSumBlocks
import proofs.«109229_j62002147885246_2_alg».proof.Proof.Algebra

noncomputable section

namespace Householder.Spec

open Idealize.ShloMosaic

variable (X : Fin 8192 → Fin 1024 → EReal) (E : Fin 8192 → Fin 4096 → EReal) (W : Fin 1024 → Fin 4096 → EReal)
  (B : Fin 1024 → EReal) (two : EReal)

/-- The linear layer's output. -/
def vec (r : Fin 8192) (j : Fin 1024) : EReal := (∑ e : Fin 4096, E r e * W j e) + B j

/-- A row's squared norm. -/
def sqnorm (r : Fin 8192) : EReal := ∑ j : Fin 1024, vec E W B r j * vec E W B r j

/-- A row's inner product with the input row. -/
def inner (r : Fin 8192) : EReal := ∑ j : Fin 1024, vec E W B r j * X r j

/-- The reflected entry, the scale written as a product with the reciprocal square root. -/
def reflect (r : Fin 8192) (j : Fin 1024) : EReal :=
  X r j - ((two * vec E W B r j) * inner X E W B r) * Ideal.rsqrt (sqnorm E W B r)

/-- With a positive squared norm, the same entry with the scale written as a quotient by the norm. -/
theorem reflect_eq_quotient (r : Fin 8192) (j : Fin 1024) (h : 0 < sqnorm E W B r) :
    reflect X E W B two r j
      = X r j - Ideal.div ((two * vec E W B r j) * inner X E W B r) (Ideal.sqrt (sqnorm E W B r)) := by
  unfold reflect
  rw [Householder.Algebra.mul_rsqrt_eq_div_sqrt _ _ h]

/-- A contraction over 4096 positions accumulated from zero in four consecutive blocks of 1024 is the whole contraction. -/
theorem four_blocks (f : Fin 4096 → EReal) :
    (0 : EReal) + ∑ s ∈ Finset.range 4, ∑ q : Fin 1024, Cert.Lib.SumBlocks.onNat f (s * 1024 + q.val) = ∑ e : Fin 4096, f e := by
  rw [zero_add, ← Cert.Lib.SumBlocks.sum_fin_blocks 4 1024 rfl f]

end Householder.Spec

end
-- ==== Proof.KernelValue.lean ====
/-
  The kernel's blocks as values of the arguments, on the extended reals.

  Entry (p, j) of the accumulator after point n holds, for the row r = 1024·(n/4) + p of the batch, zero plus the blocks
  0, …, n % 4 of the contraction Σ over e of E r e · W j e (block s being the positions 1024·s, …, 1024·s + 1023); after the
  last step of a row block that is the whole contraction, and the output block's entry (p, j) is the reflected entry of
  row r.
-/
import proofs.«109229_j62002147885246_2_alg».proof.Proof.Accumulate
import proofs.«109229_j62002147885246_2_alg».proof.Proof.Blocks
import proofs.«109229_j62002147885246_2_alg».proof.Proof.BodyRead
import proofs.«109229_j62002147885246_2_alg».proof.Proof.HostPrefix
import proofs.«109229_j62002147885246_2_alg».proof.Proof.Spec

set_option maxRecDepth 16384

noncomputable section

open Idealize.ShloMosaic Idealize.ShloMosaic.TcCoe Idealize.SL.Sem Idealize.ShloMosaic.ValueIdx

namespace Cert.KernelIdeal.KernelValue

open Cert.KernelIdeal Cert.KernelIdeal.Gen Cert.KernelIdeal.Pieces Cert.KernelIdeal.Accumulate Cert.KernelIdeal.Blocks
  Cert.KernelIdeal.BodyRead Cert.KernelIdeal.HostPrefix
open Cert.Lib.SumBlocks (onNat onNat_of_lt)

variable (m : (ℓ : Loc nD τ sig) → Buf (Elt Ideal) ℓ)

/-- The four arguments, by coordinates: the input, the encoder output, the weight matrix, the bias. -/
def argX (c : Dev nD) (r : Fin 8192) (j : Fin 1024) : EReal := m ((c : Thread nD τ).loc main_arg0) (ix2 r j)
def argE (c : Dev nD) (r : Fin 8192) (e : Fin 4096) : EReal := m ((c : Thread nD τ).loc main_arg1) (ix2 r e)
def argW (c : Dev nD) (j : Fin 1024) (e : Fin 4096) : EReal := m ((c : Thread nD τ).loc main_arg2) (ix2 j e)
def argB (c : Dev nD) (j : Fin 1024) : EReal := m ((c : Thread nD τ).loc main_arg3) (ix1 j)

/-- The point's blocks, typed by their literal shapes. -/
abbrev encBlk (c : Dev nD) (t : Fin cfg0.N) : Vec Ideal S1024x1024 .bf16 := iblk m c 0 t
abbrev wBlk (c : Dev nD) (t : Fin cfg0.N) : Vec Ideal S1024x4096 .bf16 := iblk m c 1 t
abbrev biasBlk (c : Dev nD) (t : Fin cfg0.N) : Vec Ideal S1x1024 .f32 := iblk m c 2 t
abbrev xBlk (c : Dev nD) (t : Fin cfg0.N) : Vec Ideal S1024x1024 .f32 := iblk m c 3 t

theorem enc_entry (c : Dev nD) (t : Fin cfg0.N) (p q : Fin 1024) (r : Fin 8192) (e : Fin 4096)
    (hr : r.val = 1024 * (t.val / 4) + p.val) (he : e.val = 1024 * (t.val % 4) + q.val) :
    encBlk m c t (ix2 p q) = argE m c r e := by
  refine (enc_block m c t p q r e hr he).trans ?_
  rw [enc_array]
  rfl

theorem w_entry (c : Dev nD) (t : Fin cfg0.N) (j q : Fin 1024) (e : Fin 4096) (he : e.val = 1024 * (t.val % 4) + q.val) :
    wcols (grid0.coords t) (wBlk m c t) (ix2 j q) = argW m c j e := by
  refine (w_block m c t j q e he).trans ?_
  rw [w_array]
  rfl

theorem bias_entry (c : Dev nD) (t : Fin cfg0.N) (j : Fin 1024) :
    biasBlk m c t (ix2 (0 : Fin 1) j) = argB m c j := by
  refine (bias_block m c t j).trans ?_
  rw [bias_array]
  exact shapeCast_apply _ _ _ (ix1 j) (by
    rw [Shape.rowMajor_val_one, Shape.rowMajor_val_two]
    show j.val = 0 * 1024 + j.val
    omega)

theorem x_entry (c : Dev nD) (t : Fin cfg0.N) (p j : Fin 1024) (r : Fin 8192) (hr : r.val = 1024 * (t.val / 4) + p.val) :
    xBlk m c t (ix2 p j) = argX m c r j := by
  refine (x_block m c t p j r hr).trans ?_
  rw [V_main_arg0]
  rfl

/-- One step's contribution at entry (p, j): block `t % 4` of row r's contraction against weight row j. -/
theorem term_eq (c : Dev nD) (t : Fin cfg0.N) (p j : Fin 1024) (r : Fin 8192) (hr : r.val = 1024 * (t.val / 4) + p.val) :
    ∑ q : Fin 1024, encBlk m c t (ix2 p q) * wcols (grid0.coords t) (wBlk m c t) (ix2 j q)
      = ∑ q : Fin 1024, onNat (fun e : Fin 4096 => argE m c r e * argW m c j e) (t.val % 4 * 1024 + q.val) := by
  refine Finset.sum_congr rfl fun q _ => ?_
  have hlt : t.val % 4 * 1024 + q.val < 4096 := by have := q.isLt; omega
  have he : (⟨t.val % 4 * 1024 + q.val, hlt⟩ : Fin 4096).val = 1024 * (t.val % 4) + q.val := by
    show t.val % 4 * 1024 + q.val = _; omega
  rw [onNat_of_lt _ _ hlt, enc_entry m c t p q r ⟨_, hlt⟩ hr he, w_entry m c t j q ⟨_, hlt⟩ he]

/-- The terms of row r's contraction against weight row j. -/
abbrev terms (c : Dev nD) (r : Fin 8192) (j : Fin 1024) : Fin 4096 → EReal := fun e => argE m c r e * argW m c j e

/-- One step at entry (p, j): the carried entry plus block `t % 4` of the contraction. -/
theorem step_entry (c : Dev nD) (t : Fin cfg0.N) (a : Vec Ideal S1024x1024 .f32) (p j : Fin 1024) (r : Fin 8192)
    (hr : r.val = 1024 * (t.val / 4) + p.val) :
    step (grid0.coords t) (encBlk m c t) (wBlk m c t) a (ix2 p j)
      = a (ix2 p j) + ∑ q : Fin 1024, onNat (terms m c r j) (t.val % 4 * 1024 + q.val) :=
  (step_apply (wcols (grid0.coords t) (wBlk m c t)) a (encBlk m c t) p j).trans
    (congrArg (fun z : EReal => a (ix2 p j) + z) (term_eq m c t p j r hr))

/-- The accumulator after point n at entry (p, j): zero plus the blocks 0, …, n % 4 of row r's contraction. -/
theorem acc_apply (c : Dev nD) : ∀ (n : ℕ) (h : n < cfg0.N) (p j : Fin 1024) (r : Fin 8192), r.val = 1024 * (n / 4) + p.val →
    acc m c n h (ix2 p j)
      = 0 + ∑ s ∈ Finset.range (n % 4 + 1), ∑ q : Fin 1024, onNat (terms m c r j) (s * 1024 + q.val)
  | 0, h, p, j, r, hr => by
    refine (step_entry m c ⟨0, h⟩ (k0_pay1 (F := Ideal)) p j r hr).trans ?_
    rw [zero_apply]
    show (0 : EReal) + ∑ q : Fin 1024, onNat _ (0 % 4 * 1024 + q.val) = 0 + ∑ s ∈ Finset.range (0 % 4 + 1), _
    simp
  | n + 1, h, p, j, r, hr => by
    have hN : cfg0.N = 32 := N_0
    by_cases h0 : (n + 1) % 4 = 0
    · rw [acc_first m c n h h0]
      refine (step_entry m c ⟨n + 1, h⟩ (k0_pay1 (F := Ideal)) p j r hr).trans ?_
      rw [zero_apply]
      show (0 : EReal) + ∑ q : Fin 1024, onNat _ ((n + 1) % 4 * 1024 + q.val) = _
      rw [h0]
      simp
    · rw [acc_next m c n h h0]
      refine (step_entry m c ⟨n + 1, h⟩ _ p j r hr).trans ?_
      rw [acc_apply c n (Nat.lt_of_succ_lt h) p j r (by omega)]
      show _ + ∑ q : Fin 1024, onNat _ ((n + 1) % 4 * 1024 + q.val) = _
      have hk : (n + 1) % 4 = n % 4 + 1 := by omega
      rw [hk, Finset.sum_range_succ _ (n % 4 + 1), add_assoc]

/-- After the last step of a row block the accumulator's entry is the whole contraction. -/
theorem acc_last (c : Dev nD) (n : ℕ) (h : n < cfg0.N) (h3 : n % 4 = 3) (p j : Fin 1024) (r : Fin 8192)
    (hr : r.val = 1024 * (n / 4) + p.val) :
    acc m c n h (ix2 p j) = ∑ e : Fin 4096, argE m c r e * argW m c j e := by
  rw [acc_apply m c n h p j r hr, h3]
  exact Householder.Spec.four_blocks (terms m c r j)

/-- The output block at the last step of a row block: entry (p, j) is the reflected entry of row r. -/
theorem out_entry (c : Dev nD) (n : ℕ) (h : n + 1 < cfg0.N) (h3 : (n + 1) % 4 = 3) (p j : Fin 1024) (r : Fin 8192)
    (hr : r.val = 1024 * ((n + 1) / 4) + p.val) :
    (outsAt0 m c (n + 1) h).1 (ix2 p j)
      = Householder.Spec.reflect (argX m c) (argE m c) (argW m c) (argB m c) two r j := by
  rw [out_eq m c n h h3]
  refine (epilogue_apply (acc m c (n + 1) h) (biasBlk m c ⟨n + 1, h⟩) (xBlk m c ⟨n + 1, h⟩) p j).trans ?_
  have ha : ∀ k : Fin 1024, acc m c (n + 1) h (ix2 p k) = ∑ e : Fin 4096, argE m c r e * argW m c k e :=
    fun k => acc_last m c (n + 1) h h3 p k r hr
  have hb : ∀ k : Fin 1024, biasBlk m c ⟨n + 1, h⟩ (ix2 (0 : Fin 1) k) = argB m c k := fun k => bias_entry m c ⟨n + 1, h⟩ k
  have hx : ∀ k : Fin 1024, xBlk m c ⟨n + 1, h⟩ (ix2 p k) = argX m c r k := fun k => x_entry m c ⟨n + 1, h⟩ p k r hr
  simp only [ha, hb, hx]
  rfl

end Cert.KernelIdeal.KernelValue

end
-- ==== Proof.KernelFinal.lean ====
/-
  The output array after the run, and the run.

  Only the last step of a row block writes its output block back, and the eight written blocks (rows 1024·b, …,
  1024·b + 1023 for b = 0, …, 7) tile the [8192, 1024] output; block b holds the reflected entries of its rows.  So the
  output array ends as the reflected entry at every index.  The second result is the zero column the program builds after
  the region.
-/
import proofs.«109229_j62002147885246_2_alg».proof.Proof.KernelValue
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Accumulate Cert.KernelIdeal.Blocks Cert.KernelIdeal.KernelValue
open Cert.KernelIdeal.BodyRead (two)

variable (m : (ℓ : Loc nD τ sig) → Buf (Elt Ideal) ℓ) (ρ : Dev nD → PrngReg)

/-- The output array as one function of the arguments: the reflected entry at every index. -/
def result (c : Dev nD) : Buf (Elt Ideal) ((c : Thread nD τ).loc main_v3) :=
  fun i => Householder.Spec.reflect (argX m c) (argE m c) (argW m c) (argB m c) two (i 0) (i 1)

/-- What a writing point flushes is its block of that function. -/
theorem flushed_eq (c : Dev nD) (t : Fin cfg0.N) (hf : (cfg0.win 4).flush t = true) :
    (dats m 0 c).flushed 4 t = ((cfg0.win 4).blk t).view.read (Elt Ideal) (result m c) := by
  have hN : cfg0.N = 32 := N_0
  have h3 : t.val % 4 = 3 := (flush0_4 t).mp hf
  obtain ⟨tv, tlt⟩ := t
  obtain ⟨n, rfl⟩ : ∃ n, tv = n + 1 := ⟨tv - 1, by dsimp only at h3; omega⟩
  have h3' : (n + 1) % 4 = 3 := h3
  show (cfg0.win 4).cut (grid0.coords ⟨n + 1, tlt⟩) ((dats m 0 c).after 4 ⟨n + 1, tlt⟩) = _
  rw [after0_4]
  funext y
  obtain ⟨p, j, rfl⟩ : ∃ (p j : Fin 1024), y = ix2 p j := ⟨y 0, y 1, eq_ix2 y⟩
  rw [View.read_apply]
  have hlt : 1024 * ((n + 1) / 4) + p.val < 8192 := by have := p.isLt; omega
  have he : ((cfg0.win 4).blk ⟨n + 1, tlt⟩).view.emb (ix2 p j) = ix2 (⟨1024 * ((n + 1) / 4) + p.val, hlt⟩ : Fin 8192) j :=
    funext fun a => Fin.ext (by
      match a with
      | ⟨0, _⟩ =>
        show win0_4.index ⟨n + 1, tlt⟩ 0 * 1024 + 1 * p.val = 1024 * ((n + 1) / 4) + p.val
        rw [(out_index ⟨n + 1, tlt⟩).1]
        show (n + 1) / 4 * 1024 + 1 * p.val = 1024 * ((n + 1) / 4) + p.val
        omega
      | ⟨1, _⟩ =>
        show win0_4.index ⟨n + 1, tlt⟩ 1 * 1024 + 1 * j.val = j.val
        rw [(out_index ⟨n + 1, tlt⟩).2]; omega)
  rw [he]
  exact out_entry m c n tlt h3' p j ⟨1024 * ((n + 1) / 4) + p.val, hlt⟩ rfl

/-- Every index of the output lies in the block some writing point flushes: row i is in row block i / 1024. -/
theorem covered (i : S8192x1024.Idx) :
    ∃ t : Fin cfg0.N, (cfg0.win 4).flush t = true ∧ i ∈ ((cfg0.win 4).blk t).view.set := by
  have hN : cfg0.N = 32 := N_0
  have hi0 : (i 0).val < 8192 := (i 0).isLt
  have hi1 : (i 1).val < 1024 := (i 1).isLt
  have hlt : 4 * ((i 0).val / 1024) + 3 < cfg0.N := by omega
  refine ⟨⟨4 * ((i 0).val / 1024) + 3, hlt⟩, (flush0_4 _).mpr (by show (4 * ((i 0).val / 1024) + 3) % 4 = 3; omega), ?_⟩
  show i ∈ ((View.whole main_v3).slice (win0_4.rect ⟨4 * ((i 0).val / 1024) + 3, hlt⟩)).set
  rw [View.set_slice_whole, Rect.mem_set_unit]
  intro a
  match a with
  | ⟨0, _⟩ =>
    show win0_4.index ⟨4 * ((i 0).val / 1024) + 3, hlt⟩ 0 * 1024 ≤ (i 0).val
      ∧ (i 0).val < win0_4.index ⟨4 * ((i 0).val / 1024) + 3, hlt⟩ 0 * 1024 + 1024
    rw [(out_index ⟨4 * ((i 0).val / 1024) + 3, hlt⟩).1]
    show (4 * ((i 0).val / 1024) + 3) / 4 * 1024 ≤ (i 0).val ∧ (i 0).val < (4 * ((i 0).val / 1024) + 3) / 4 * 1024 + 1024
    omega
  | ⟨1, _⟩ =>
    show win0_4.index ⟨4 * ((i 0).val / 1024) + 3, hlt⟩ 1 * 1024 ≤ (i 1).val
      ∧ (i 1).val < win0_4.index ⟨4 * ((i 0).val / 1024) + 3, hlt⟩ 1 * 1024 + 1024
    rw [(out_index ⟨4 * ((i 0).val / 1024) + 3, hlt⟩).2]
    omega

/-- The output array after the run. -/
theorem final (c : Dev nD) : (dats m 0 c).arrAt 4 cfg0.N = result m c :=
  (dats m 0 c).arrAt_eq_of_cover 4 (result m c) (flushed_eq m c) covered

/-- The second result: the zero column built after the region. -/
theorem tail_zero (c : Dev nD) :
    Pipeline.afterTail₀ cfgs (dats m) 0 (V0 m) [hostOps1] c main_v4
      = broadcastInDim S8192x1 ![] bcast_S_S8192x1 (constant (F := Ideal) S_ .f32 0x00000000#32) := by
  unfold Pipeline.afterTail₀
  show StableHlo.after hostOps1 _ (Proc.devRef .tc main_v4) = _
  after_results <;> rfl

/-- The run, read: both results named, the arguments unchanged. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_v4) = broadcastInDim S8192x1 ![] bcast_S_S8192x1 (constant (F := Ideal) S_ .f32 0x00000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 4).trans (final m c),
      ((h c).2 main_v4 (Pipeline.mem_restRefs_of main_v4 (by decide) (by decide))).trans (tail_zero m c),
      ((h c).1 3).trans (((dats m 0 c).arrAt_in 3 rfl _).trans ((A_eq m c 3).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.RefValue.lean ====
/-
  The reference's result, entry by entry, is the specification's reflected entry in its quotient form.

  The reference forms v = E·Wᵀ + B with one contraction, sums v·X and v·v along each row from zero, takes the square root
  of the second sum, and returns X − ((2·v)·s1) / sqrt s2.
-/
import proofs.«109229_j62002147885246_2_alg».proof.Proof.Gen.ReferenceIdeal.Read
import proofs.«109229_j62002147885246_2_alg».proof.Proof.Spec

noncomputable section

open Idealize.ShloMosaic Idealize.ShloMosaic.ValueIdx

namespace Cert.ReferenceIdeal.RefValue

open Cert.ReferenceIdeal Cert.ReferenceIdeal.Gen Cert.ReferenceIdeal.Read

variable (x0 : (⟨S8192x1024, .f32⟩ : BufTy).Contents (Elt Ideal)) (x1 : (⟨S8192x4096, .f32⟩ : BufTy).Contents (Elt Ideal))
  (x2 : (⟨S1024x4096, .f32⟩ : BufTy).Contents (Elt Ideal)) (x3 : (⟨S1024, .f32⟩ : BufTy).Contents (Elt Ideal))

/-- The four arguments, by coordinates. -/
def cX (r : Fin 8192) (j : Fin 1024) : EReal := x0 (ix2 r j)
def cE (r : Fin 8192) (e : Fin 4096) : EReal := x1 (ix2 r e)
def cW (j : Fin 1024) (e : Fin 4096) : EReal := x2 (ix2 j e)
def cB (j : Fin 1024) : EReal := x3 (ix1 j)

/-- The word of the factor 2. -/
abbrev two : EReal := Ideal.ofBits .f32 0x40000000#32

theorem lidx_eq (r : Fin 8192) (j : Fin 1024) (k : Fin 4096) : lidx_main_v0 (ix2 r j) k = ix2 r k :=
  funext fun a => Fin.ext (by match a with | ⟨0, _⟩ => rfl | ⟨1, _⟩ => rfl)
theorem ridx_eq (r : Fin 8192) (j : Fin 1024) (k : Fin 4096) : ridx_main_v0 (ix2 r j) k = ix2 j k :=
  funext fun a => Fin.ext (by match a with | ⟨0, _⟩ => rfl | ⟨1, _⟩ => rfl)
theorem bias_idx_eq (r : Fin 8192) (j : Fin 1024) : idx_main_v1 (idx_main_v2 (ix2 r j)) = ix1 j :=
  funext fun a => Fin.ext (by match a with | ⟨0, _⟩ => rfl)
theorem row_idx_eq (r : Fin 8192) (k : Fin 1024) : idx_main_v5 (ix1 r) k = ix2 r k :=
  funext fun a => Fin.ext (by match a with | ⟨0, _⟩ => rfl | ⟨1, _⟩ => rfl)
theorem row_idx_eq' (r : Fin 8192) (k : Fin 1024) : idx_main_call0_v1 (ix1 r) k = ix2 r k :=
  funext fun a => Fin.ext (by match a with | ⟨0, _⟩ => rfl | ⟨1, _⟩ => rfl)
theorem col_idx_eq (r : Fin 8192) (j : Fin 1024) : idx_main_v6 (idx_main_v10 (ix2 r j)) = ix1 r :=
  funext fun a => Fin.ext (by match a with | ⟨0, _⟩ => rfl)
theorem col_idx_eq' (r : Fin 8192) (j : Fin 1024) : idx_main_call0_v2 (idx_main_v12 (ix2 r j)) = ix1 r :=
  funext fun a => Fin.ext (by match a with | ⟨0, _⟩ => rfl)

/-- The linear layer's output at (r, j). -/
theorem vec_apply (r : Fin 8192) (j : Fin 1024) :
    val_main_v3 (F := Ideal) x1 x2 x3 (ix2 r j) = Householder.Spec.vec (cE x1) (cW x2) (cB x3) r j := by
  rw [val_main_v3_apply, val_main_v0_apply, val_main_v2_apply, val_main_v1_apply, bias_idx_eq]
  simp only [lidx_eq, ridx_eq]
  rfl

/-- The row's squared norm, as the called norm function sums it. -/
theorem sqnorm_apply (r : Fin 8192) :
    val_main_call0_v1 (F := Ideal) x1 x2 x3 (ix1 r) = Householder.Spec.sqnorm (cE x1) (cW x2) (cB x3) r := by
  rw [val_main_call0_v1_apply]
  simp only [row_idx_eq', val_main_call0_v0_apply, vec_apply]
  show Ideal.ofBits .f32 0x00000000#32 + _ = _
  rw [Ideal.ofBits_zero_f32, zero_add]
  rfl

/-- The row's inner product with the input row. -/
theorem inner_apply (r : Fin 8192) :
    val_main_v5 (F := Ideal) x0 x1 x2 x3 (ix1 r) = Householder.Spec.inner (cX x0) (cE x1) (cW x2) (cB x3) r := by
  rw [val_main_v5_apply]
  simp only [row_idx_eq, val_main_v4_apply, vec_apply]
  show Ideal.ofBits .f32 0x00000000#32 + _ = _
  rw [Ideal.ofBits_zero_f32, zero_add]
  rfl

/-- The reference's result at (r, j), for a row of positive squared norm, is the reflected entry. -/
theorem result_apply (r : Fin 8192) (j : Fin 1024) (h : 0 < Householder.Spec.sqnorm (cE x1) (cW x2) (cB x3) r) :
    val_main_v14 (F := Ideal) x0 x1 x2 x3 (ix2 r j)
      = Householder.Spec.reflect (cX x0) (cE x1) (cW x2) (cB x3) two r j := by
  rw [Householder.Spec.reflect_eq_quotient _ _ _ _ _ r j h]
  rw [val_main_v14_apply, val_main_v13_apply, val_main_v11_apply, val_main_v12_apply, val_main_v7_apply, val_main_call0_v2_apply,
    col_idx_eq', sqnorm_apply, val_main_v10_apply, val_main_v6_apply, col_idx_eq, inner_apply, val_main_v9_apply, vec_apply,
    val_main_v8_apply, val_main_cst_0_apply]
  rfl

end Cert.ReferenceIdeal.RefValue

end
-- ==== Proof.PreRead.lean ====
/-
  What the precondition says about a row's squared norm.

  The precondition is a conjunction, its last conjunct "every row of v = E·Wᵀ + B has a positive squared norm", where
  the squared norm is computed by the very operations the reference uses.  Read on the extended reals it gives, for every
  row r, 0 < Σ over j of (v r j)².
-/
import proofs.«109229_j62002147885246_2_alg».proof.Pre_finite_inputs
import proofs.«109229_j62002147885246_2_alg».proof.Proof.Gen.Pre_finite_inputs
import proofs.«109229_j62002147885246_2_alg».proof.Proof.RefValue
import Idealize.ShloMosaic.Lib.ReduceAll
import Idealize.ShloMosaic.Lib.Affine

noncomputable section

open Idealize.ShloMosaic Idealize.ShloMosaic.ValueIdx

namespace Cert.PreRead

instance : Subsingleton Cert.Pre_finite_inputs.S_.Idx := ⟨fun a b => funext fun d => d.elim0⟩

/-- A strict comparison of extended reals that answers 1 holds. -/
theorem cmp_ogt_eq_one {a b : EReal} (h : Ideal.cmp .ogt a b = 1#1) : b < a := by
  unfold Ideal.cmp at h
  have hb : ∀ d : Bool, BitVec.ofBool d = 1#1 → d = true := fun d => by cases d <;> decide
  exact of_decide_eq_true (hb _ h)

variable [hP : Cert.Pre_finite_inputs.Facts] [hR : Cert.ReferenceIdeal.Facts]

theorem sqnorm_pos (x0 : FVec Ideal Cert.Pre_finite_inputs.S8192x1024 .f32) (x1 : FVec Ideal Cert.Pre_finite_inputs.S8192x4096 .f32)
    (x2 : FVec Ideal Cert.Pre_finite_inputs.S1024x4096 .f32) (x3 : FVec Ideal Cert.Pre_finite_inputs.S1024 .f32)
    (h : Cert.Pre_finite_inputs.fn (F := Ideal) x0 x1 x2 x3 = fun _ => 1#1) (r : Fin 8192) :
    0 < Cert.ReferenceIdeal.Read.val_main_call0_v1 (F := Ideal) x1 x2 x3 (ix1 r) := by
  have h0 := congrFun h ValueIdx.ix0
  dsimp only [Cert.Pre_finite_inputs.fn, Cert.Pre_finite_inputs.fn_part1] at h0
  have h1 := (IntOp.andi_eq_one.mp h0).2
  have h2 := Host.reduce_andi_all _ _ _ _ _ h1 (ix1 r)
  have h3 := cmp_ogt_eq_one h2
  rw [broadcastInDim_apply _ _ _ (ix1 r) (fun a => a.elim0) (fun a => a.elim0)] at h3
  have h4 : (0 : EReal) < Cert.ReferenceIdeal.Read.val_main_call0_v1 (F := Ideal) x1 x2 x3 (ix1 r) := by
    rw [← Ideal.ofBits_zero_f32]
    exact h3
  exact h4

end Cert.PreRead

end
-- ==== Proof.Bridge.lean ====
/-
  The two programs' results are one function of the arguments.

  Under the precondition every row's squared norm is positive, so the reference's quotient by the norm is the kernel's
  product with the reciprocal square root: at every index both results are the reflected entry.
-/
import proofs.«109229_j62002147885246_2_alg».proof.Proof.KernelFinal
import proofs.«109229_j62002147885246_2_alg».proof.Proof.PreRead

noncomputable section

open Idealize.ShloMosaic Idealize.ShloMosaic.TcCoe Idealize.SL.Sem Idealize.ShloMosaic.ValueIdx

namespace Cert.Bridge

open Cert.KernelIdeal

/-- The reference's result term, at the kernel's arguments, is the kernel's output array. -/
theorem reference_eq_result (m : (ℓ : Loc nD τ sig) → Buf (Elt Ideal) ℓ) (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1) :
    Cert.ReferenceIdeal.Read.val_main_v14 (F := Ideal) (m ((c.tc : Thread nD τ).loc main_arg0)) (m ((c.tc : Thread nD τ).loc main_arg1))
      (m ((c.tc : Thread nD τ).loc main_arg2)) (m ((c.tc : Thread nD τ).loc main_arg3))
      = Cert.KernelIdeal.Final.result m c := by
  funext i
  obtain ⟨r, j, rfl⟩ : ∃ (r : Fin 8192) (j : Fin 1024), i = ix2 r j := ⟨i 0, i 1, eq_ix2 i⟩
  have hp := Cert.PreRead.sqnorm_pos _ _ _ _ hpre r
  rw [Cert.ReferenceIdeal.RefValue.sqnorm_apply] at hp
  rw [Cert.ReferenceIdeal.RefValue.result_apply _ _ _ _ r j hp]
  rfl

end Cert.Bridge

end
-- ==== Proof.lean ====
/-
  A Householder-style reflection of each input row x about the linear layer's output v = E·Wᵀ + b:
  out = x − 2·v·(v·x)/‖v‖, and a zero column.

  The kernel builds v block by block (four blocks of 1024 along the contracted axis, accumulated from zero over a grid
  axis) and, at the last block, scales by the reciprocal square root of ‖v‖²; the reference takes one whole contraction
  and divides by the square root of ‖v‖².  On the extended reals a sum may be regrouped freely, a change of float format
  is the identity, and for a positive ‖v‖² the product with rsqrt is the quotient by sqrt — so both programs return the
  same array.  At a row with v = 0 the two forms part (a product with +∞ against a quotient by zero); the precondition
  asks every row's ‖v‖² to be positive, which is where the reference's own quotient is defined.

  The kernel's output array as a function of the arguments: KernelFinal (over Pieces, Accumulate, Blocks, BodyRead,
  HostPrefix, KernelValue).  The reference's result as the same function: RefValue, PreRead, Bridge.  The function
  itself and the two laws: Spec, Algebra.
-/
import proofs.«109229_j62002147885246_2_alg».proof.Defs
import proofs.«109229_j62002147885246_2_alg».proof.Proof.Gen.Kernel
import proofs.«109229_j62002147885246_2_alg».proof.Proof.Gen.Kernel.Frame
import proofs.«109229_j62002147885246_2_alg».proof.Proof.Gen.KernelIdeal
import proofs.«109229_j62002147885246_2_alg».proof.Proof.Gen.KernelIdeal.Frame
import proofs.«109229_j62002147885246_2_alg».proof.Proof.Gen.ReferenceIdeal
import proofs.«109229_j62002147885246_2_alg».proof.Proof.Gen.ReferenceIdeal.Run
import proofs.«109229_j62002147885246_2_alg».proof.Proof.Gen.ReferenceIdeal.Read
import proofs.«109229_j62002147885246_2_alg».proof.Proof.Gen.Pre_finite_inputs
import proofs.«109229_j62002147885246_2_alg».proof.Proof.Bridge

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both idealized programs end with the reflected array and the zero column. -/
theorem algebraic : Cert.algebraic_KernelIdeal_ReferenceIdeal := by
  intro m ρ m' ρ' hpre hagree
  refine ⟨_, _, Cert.KernelIdeal.Final.run m ρ, ?_⟩
  refine (θ_run Cert.ReferenceIdeal.defs _ _).mono (fun _ h c => ⟨(h c).1.trans ?_, (h c).2.1.trans rfl, (h c).2.2⟩)
    (Cert.ReferenceIdeal.Value.run (F := Ideal) m' ρ')
  rw [(hagree c).1, (hagree c).2.1, (hagree c).2.2.1, (hagree c).2.2.2, Cert.ReferenceIdeal.Read.val_main_v14_eq]
  exact Cert.Bridge.reference_eq_result m c (hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
